-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S3x128 : Shape := ⟨2, ![3, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x3 .f32) (main_arg1 : IVec S2x800000 32) (main_arg2 : FVec F S3x128 .f32) (main_arg3 : FVec F S128 .f32) (main_arg4 : FVec F S128x64 .f32) (main_arg5 : FVec F S64 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x3 : Shape := ⟨2, ![50000, 3]⟩
abbrev S2x800000 : Shape := ⟨2, ![2, 800000]⟩
abbrev S3x128 : Shape := ⟨2, ![3, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x3 : Shape := ⟨2, ![5000, 3]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S3x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x3_S3x128_S5000x128_1_0_0_1_n_n_wf : DotDims.WF S5000x3 S3x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S3x128 : Shape := ⟨2, ![3, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x3, .f32⟩
  | 1 => ⟨S2x800000, .i32⟩
  | 2 => ⟨S3x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x800000, .i32⟩
  | 71 => ⟨S800000, .i32⟩
  | 72 => ⟨S1x800000, .i32⟩
  | 73 => ⟨S800000, .i32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x64, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x1, .f32⟩
  | 122 => ⟨S850000x64, .f32⟩
  | 123 => ⟨S850000x64, .f32⟩
  | 124 => ⟨S_, .f32⟩
  | 125 => ⟨S50000x64, .f32⟩
  | 126 => ⟨S850000x1, .i32⟩
  | 127 => ⟨S50000x64, .f32⟩
  | _ => ⟨S50000x3, .f32⟩

abbrev hbmTy0_1 (i : Nat) : BufTy := match i % 128 with
  | 0 => ⟨S1x64, .f32⟩
  | 1 => ⟨S50000x64, .f32⟩
  | 2 => ⟨S50000x64, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x3_S3x128_S50000x128_1_0_0_1_n_n_wf : DotDims.WF S50000x3 S3x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The run of the two-layer graph convolution's program with its result named.

  The program is nine segments: stretches of host operations and four tiled regions. Every buffer outside the staging
  memory is held, at each boundary between segments, at a known contents: a fold of the host operations from the launch
  memory, with each region's arrays replaced by what its write-backs leave. At the return the contents are `W9`. The
  frame reads the six argument arrays off that last boundary; here the result array is read off it as well, so that
  the value of the program is `W9` at the result's buffer.
-/
import proofs.«131004_j25649544692374_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the six argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«131004_j25649544692374_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«131004_j25649544692374_1_alg».proof.Proof.LibPlainDotFormats
import proofs.«131004_j25649544692374_1_alg».proof.Proof.LibKeepdims
import proofs.«131004_j25649544692374_1_alg».proof.Proof.LibJoinedRows
import proofs.«131004_j25649544692374_1_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.Spec.lean ====
/-
  The two-layer graph convolution as one function of its six arguments.

  The edge list `e` (two rows of 800000 node numbers) gives, with one self loop per node appended, 850000 source
  numbers and 850000 target numbers. A node's degree is the number of edges that target it; the edge weight is
  `d(source)^(-1/2) · d(target)^(-1/2)`, the inverse square root read as zero where the degree is not positive. One
  layer maps node features `h` to: the matrix product with the layer's weights; per edge, the source's row of that product
  times the edge weight; the sum of those rows over the edges into each target (`aggregate`); plus the bias row. The
  first layer's output is clamped below at zero before the second layer.

  The gather of the sources' rows and the sum into the targets are never opened: both programs apply them, as the same
  host operations with the same dimension numbers, to arrays that are proved equal. A node number is wrapped the way
  array indexing wraps a negative number (`i + 50000` when `i < 0`) before a gather, and used as it is by the sums.
-/
import proofs.«131004_j25649544692374_1_alg».proof.Proof.Gen.KernelIdeal
import proofs.«131004_j25649544692374_1_alg».proof.Proof.LibTileOps

noncomputable section

namespace Cert.KernelIdeal.Spec

open Idealize.ShloMosaic Cert.KernelIdeal Cert.KernelIdeal.Facts₀

/-- The edge list. -/
abbrev Edges := IVec S2x800000 32
/-- One node number per edge, self loops included. -/
abbrev Ends := IVec S850000 32
/-- One number per edge, as a column. -/
abbrev EndsCol := IVec S850000x1 32
/-- One weight per edge. -/
abbrev Weights := FVec Ideal S850000 .f32

/-- The sources: row 0 of the edge list, then every node once (its self loop). -/
def srcFull (e : Edges) : Ends :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The targets: row 1 of the edge list, then every node once. -/
def dstFull (e : Edges) : Ends :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- Node numbers as a one-column array (the form a gather or a scatter takes them in). -/
def col (i : Ends) : EndsCol := broadcastInDim S850000x1 ![0] bcast_S850000_S850000x1_0 i

/-- Node numbers wrapped as indexing wraps them: `i + 50000` where `i < 0`, as a column. -/
def wrapCol (i : Ends) : EndsCol :=
  col (select (cmpi .slt i (broadcastInDim S850000 ![] bcast_S_S850000 (constantI S_ 32 0#32)))
    (addi i (broadcastInDim S850000 ![] bcast_S_S850000 (constantI S_ 32 50000#32))) i)

/-- A node's degree: the ones of all edges summed into their targets. -/
def degreeOf (d : Ends) : FVec Ideal S50000 .f32 :=
  Host.scatterAdd scatter_S50000_S850000x1_S850000_n_0_0_1
    (broadcastInDim S50000 ![] bcast_S_S50000 (constant (F := Ideal) S_ .f32 0x00000000#32))
    (col d)
    (broadcastInDim S850000 ![] bcast_S_S850000 (constant (F := Ideal) S_ .f32 0x3F800000#32))

/-- The degrees of the edge list's nodes. -/
def degree (e : Edges) : FVec Ideal S50000 .f32 := degreeOf (dstFull e)

/-- `g^(-1/2)` where the degree `g` is positive, zero elsewhere. -/
def invSqrtOf (g : FVec Ideal S50000 .f32) : FVec Ideal S50000 .f32 :=
  select (cmpf (F := Ideal) .ogt g (broadcastInDim S50000 ![] bcast_S_S50000 (constant (F := Ideal) S_ .f32 0x00000000#32)))
    (Host.rsqrt (F := Ideal) g)
    (broadcastInDim S50000 ![] bcast_S_S50000 (constant (F := Ideal) S_ .f32 0x00000000#32))

/-- The nodes' factors for the edge list. -/
def degInvSqrt (e : Edges) : FVec Ideal S50000 .f32 := invSqrtOf (degree e)

/-- The weight of each edge from the nodes' factors `q`: the source's factor times the target's. -/
def edgeWeightOf (q : FVec Ideal S50000 .f32) (s d : Ends) : Weights :=
  mulf (Host.gather gather_S50000_S850000x1_S850000_n_0_n_n_0_1_1 q (wrapCol s))
    (Host.gather gather_S50000_S850000x1_S850000_n_0_n_n_0_1_1 q (wrapCol d))

/-- The weight of each edge of the edge list. -/
def edgeWeight (e : Edges) : Weights := edgeWeightOf (degInvSqrt e) (srcFull e) (dstFull e)

/-- The sum over the edges into each target `d` of the source `s`'s row of `h` times the edge's weight, 128 columns. -/
def aggregate128 (s d : Ends) (w : Weights) (h : FVec Ideal S50000x128 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (col d)
    (mulf (Host.gather gather_S50000x128_S850000x1_S850000x128_1_0_n_n_0_1_1128 h (wrapCol s))
      (broadcastInDim S850000x128 ![0, 1] bcast_S850000x1_S850000x128_0_1 (broadcastInDim S850000x1 ![0] bcast_S850000_S850000x1_0 w)))

/-- The same over 64 columns. -/
def aggregate64 (s d : Ends) (w : Weights) (h : FVec Ideal S50000x64 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (col d)
    (mulf (Host.gather gather_S50000x64_S850000x1_S850000x64_1_0_n_n_0_1_164 h (wrapCol s))
      (broadcastInDim S850000x64 ![0, 1] bcast_S850000x1_S850000x64_0_1 (broadcastInDim S850000x1 ![0] bcast_S850000_S850000x1_0 w)))

open Cert.LibTileOps in
/-- The network: two layers, the first clamped below at zero. -/
def network (x : FVec Ideal S50000x3 .f32) (e : Edges)
    (w1 : FVec Ideal S3x128 .f32) (b1 : FVec Ideal S128 .f32)
    (w2 : FVec Ideal S128x64 .f32) (b2 : FVec Ideal S64 .f32) :
    FVec Ideal S50000x64 .f32 :=
  addRow (A := 50000) (B := 64)
    (aggregate64 (srcFull e) (dstFull e) (edgeWeight e)
      (matProd (A := 50000) (K := 128) (B := 64)
        (addRowClamp (A := 50000) (B := 128) (aggregate128 (srcFull e) (dstFull e) (edgeWeight e) (matProd (A := 50000) (K := 3) (B := 128) x w1))
          (shapeCast S1x128 b1 shapeCasts_S128_S1x128))
        w2))
    (shapeCast S1x64 b2 shapeCasts_S64_S1x64)

end Cert.KernelIdeal.Spec

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.HostStretch.lean ====
/-
  What each stretch of host operations of the graph convolution's program leaves in the buffers it writes, as a
  function of the buffers it reads, over ANY contents `X` of the buffers at its start.

  Before the first tiled region: the sources and targets of the edges with the self loops appended, the degrees'
  positivity and inverse square roots, the nodes' factors (the `where`), and the edges' weights. Before the second and
  the fourth region: the sum into the targets of the gathered, weighted rows of the previous region's product, and
  the bias as a one-row array. Each is a composition of the stretch's own operations; nothing is opened.
-/
import proofs.«131004_j25649544692374_1_alg».proof.Proof.Gen.KernelIdeal.Launch
import proofs.«131004_j25649544692374_1_alg».proof.Proof.Spec
import proofs.«131004_j25649544692374_1_alg».proof.Proof.LibHostReads

set_option maxRecDepth 16384

noncomputable section

namespace Cert.KernelIdeal.HostValue

open Idealize.ShloMosaic Idealize.ShloMosaic.TcCoe Idealize.SL.Sem Cert.KernelIdeal Cert.KernelIdeal.Facts₀
open Idealize.ShloMosaic.StableHlo Cert.LibHostReads

variable (X : Valuation τ sig (Elt Ideal))

/-- The sources, self loops appended, after the first stretch. -/
theorem stretch0_src : after (Gen.hostOps0 (F := Ideal)) X (Proc.devRef .tc main_v5) = Spec.srcFull (X (Proc.devRef .tc main_arg1)) := by
  after_results_simp
  host_reads
  rfl

/-- The targets, self loops appended, after the first stretch. -/
theorem stretch0_dst : after (Gen.hostOps0 (F := Ideal)) X (Proc.devRef .tc main_v6) = Spec.dstFull (X (Proc.devRef .tc main_arg1)) := by
  after_results_simp
  host_reads
  rfl

/-- Where the degree is positive. -/
theorem stretch0_pos : after (Gen.hostOps0 (F := Ideal)) X (Proc.devRef .tc main_v12)
    = cmpf (F := Ideal) .ogt (Spec.degree (X (Proc.devRef .tc main_arg1)))
        (broadcastInDim S50000 ![] bcast_S_S50000 (constant (F := Ideal) S_ .f32 0x00000000#32)) := by
  after_results_simp
  host_reads
  rfl

/-- The degree's inverse square root. -/
theorem stretch0_rsqrt : after (Gen.hostOps0 (F := Ideal)) X (Proc.devRef .tc main_v13)
    = Host.rsqrt (F := Ideal) (Spec.degree (X (Proc.devRef .tc main_arg1))) := by
  after_results_simp
  host_reads
  rfl

/-- The zero the `where` falls back to. -/
theorem stretch0_zero : after (Gen.hostOps0 (F := Ideal)) X (Proc.devRef .tc main_cst_2) = constant (F := Ideal) S_ .f32 0x00000000#32 := by
  after_results_simp

/-- The nodes' factors: the inverse square root where the degree is positive, the zero elsewhere. -/
theorem stretch01_factor : after (Gen.hostOps0_1 (F := Ideal)) X (Proc.devRef .tc main_v14)
    = select (X (Proc.devRef .tc main_v12)) (X (Proc.devRef .tc main_v13))
        (broadcastInDim S50000 ![] bcast_S_S50000 (X (Proc.devRef .tc main_cst_2))) := by
  after_results_simp
  rfl

/-- The edges' weights from the nodes' factors. -/
theorem stretch02_weight : after (Gen.hostOps0_2 (F := Ideal)) X (Proc.devRef .tc main_v29)
    = Spec.edgeWeightOf (X (Proc.devRef .tc main_v14)) (X (Proc.devRef .tc main_v5)) (X (Proc.devRef .tc main_v6)) := by
  after_results_simp
  rfl

/-- The first layer's aggregation of the product's rows. -/
theorem stretch1_aggregate : after (Gen.hostOps1 (F := Ideal)) X (Proc.devRef .tc main_v43)
    = Spec.aggregate128 (X (Proc.devRef .tc main_v5)) (X (Proc.devRef .tc main_v6)) (X (Proc.devRef .tc main_v29))
        (X (Proc.devRef .tc main_v30)) := by
  after_results_simp
  rfl

/-- The first layer's bias as a one-row array. -/
theorem stretch1_bias : after (Gen.hostOps1 (F := Ideal)) X (Proc.devRef .tc main_v44)
    = shapeCast S1x128 (X (Proc.devRef .tc main_arg3)) shapeCasts_S128_S1x128 := by
  after_results_simp
  rfl

/-- The second layer's aggregation of the product's rows. -/
theorem stretch3_aggregate : after (Gen.hostOps3 (F := Ideal)) X (Proc.devRef .tc main_v59)
    = Spec.aggregate64 (X (Proc.devRef .tc main_v5)) (X (Proc.devRef .tc main_v6)) (X (Proc.devRef .tc main_v29))
        (X (Proc.devRef .tc main_v46)) := by
  after_results_simp
  rfl

/-- The second layer's bias as a one-row array. -/
theorem stretch3_bias : after (Gen.hostOps3 (F := Ideal)) X (Proc.devRef .tc main_v60)
    = shapeCast S1x64 (X (Proc.devRef .tc main_arg5)) shapeCasts_S64_S1x64 := by
  after_results_simp
  rfl

end Cert.KernelIdeal.HostValue

end
-- ==== Proof.RegionProduct0.lean ====
/-
  The first matrix-product region, as one array.

  The region walks ten grid points.  Point t loads rows 5000 t … 5000 t + 4999 of the left array (a [50000, 3] array,
  so the block is [5000, 3]) and the whole [3, 128] right array, rounds both to a narrower format (the identity on the
  extended reals), multiplies them into the zero accumulator and stores the [5000, 128] result as block t of the output.
  Entry (p, c) of that block is the sum over k of left(5000 t + p, k) · right(k, c): entry (5000 t + p, c) of the
  matrix product of the two whole arrays.  Row r of the output lies in the block of point r / 5000, so the ten blocks
  fill the output, which therefore ends as the matrix product.
-/
import proofs.«131004_j25649544692374_1_alg».proof.Proof.Gen.KernelIdeal.Frame
import proofs.«131004_j25649544692374_1_alg».proof.Proof.LibTileOps
noncomputable section
namespace Cert.KernelIdeal.RegionValue
open Idealize.ShloMosaic Idealize.ShloMosaic.TcCoe Idealize.SL.Sem Cert.KernelIdeal Cert.KernelIdeal.Gen
open Idealize.ShloMosaic.ValueIdx
variable (V : (c : Dev nD) → (b : Ref sig .tc) → Buf (Elt Ideal) ((c : Thread nD τ).loc b))

/-- The zero offsets of a whole-buffer access, as a constant function. -/
theorem hz0 : (![0, 0] : Fin 2 → Nat) = fun _ => 0 := funext fun a => by fin_cases a <;> rfl

/-- The body's payload at an entry: the rounding is the identity and the product into the zero accumulator is the
    plain sum over the contracted axis. -/
theorem pay0_apply (x0 : FVec Ideal S5000x3 .f32) (x1 : FVec Ideal S3x128 .f32) (p : Fin 5000) (q : Fin 128) :
    k0_pay1 (F := Ideal) x0 x1 (ix2 p q) = ∑ k : Fin 3, x0 (ix2 p k) * x1 (ix2 k q) := by
  unfold k0_pay1
  exact Cert.LibPlainDot.Plain.matmul_zero_apply_formats (D := dot_S5000x3_S3x128_S5000x128_1_0_0_1_n_n)
    ⟨rfl, rfl, rfl, rfl, rfl, rfl⟩ none (truncf .bf16 x0 bitsLt_bf16_f32) (truncf .bf16 x1 bitsLt_bf16_f32) p q

/-- If row p of the left block is row P of the left array and the right block is the right array, the payload's
    entry (p, q) is entry (P, q) of the matrix product. -/
theorem point0 (A : FVec Ideal ⟨2, ![50000, 3]⟩ .f32) (W : FVec Ideal ⟨2, ![3, 128]⟩ .f32)
    (x0 : FVec Ideal S5000x3 .f32) (x1 : FVec Ideal S3x128 .f32) (P : Fin 50000) (p : Fin 5000) (q : Fin 128)
    (h0 : ∀ k : Fin 3, x0 (ix2 p k) = A (ix2 P k)) (h1 : ∀ k : Fin 3, x1 (ix2 k q) = W (ix2 k q)) :
    k0_pay1 (F := Ideal) x0 x1 (ix2 p q) = Cert.LibTileOps.matProd A W (ix2 P q) := by
  rw [pay0_apply, Cert.LibTileOps.matProd_apply]
  exact Finset.sum_congr rfl fun k _ => by rw [h0 k, h1 k]

/-- The block indices over the grid: the left window and the output move together along the rows, one block per
    point; the right window and every column index stay at zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of the matrix product of the two whole arrays as the region finds them. -/
theorem flushed0_eq (c : Dev nD) (t : Fin cfg0.N) :
    (dat0 (F := Ideal) V c).flushed 2 t = ((cfg0.win 2).blk t).view.read (Elt Ideal)
      (Cert.LibTileOps.matProd (A := 50000) (K := 3) (B := 128) (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S5000x3) hz0, View.ld_unit_zero (S := S3x128) hz0]
  obtain ⟨e0, e1, e2, e3, e4, e5⟩ := idx_facts0 t
  funext j
  revert j
  show ∀ j : S5000x128.Idx, k0_pay1 (F := Ideal) (iblk0 V c 0 t) (iblk0 V c 1 t) j
    = Cert.LibTileOps.matProd (A := 50000) (K := 3) (B := 128) (V c main_arg0) (V c main_arg2) (((cfg0.win 2).blk t).view.emb j)
  intro j
  obtain ⟨p, q, rfl⟩ : ∃ (p : Fin 5000) (q : Fin 128), j = ix2 p q := ⟨j 0, j 1, eq_ix2 j⟩
  have hp : p.val < 5000 := p.isLt
  have hP : win0_2.index t (0 : Fin 2) * 5000 + p.val < 50000 := by omega
  have eo : ((cfg0.win 2).blk t).view.emb (ix2 p q) = ix2 (⟨win0_2.index t (0 : Fin 2) * 5000 + p.val, hP⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [eo]
  refine point0 _ _ _ _ _ p q (fun k => ?_) (fun k => ?_)
  · show V c main_arg0 (((cfg0.win 0).blk t).view.emb (ix2 p k)) = V c main_arg0 (ix2 _ k)
    refine congrArg _ ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 3 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 3 + 1 * k.val = k.val; omega
    | ⟨1, _⟩ => show win0_1.index t (1 : Fin 2) * 128 + 1 * q.val = q.val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the output is in the block of point r / 5000: the ten blocks fill the array. -/
theorem cover0 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the matrix product of the two arrays the region reads. -/
theorem region0_array (c : Dev nD) :
    (dat0 (F := Ideal) V c).arrAt 2 cfg0.N = Cert.LibTileOps.matProd (A := 50000) (K := 3) (B := 128) (V c main_arg0) (V c main_arg2) :=
  (dat0 (F := Ideal) V c).arrAt_eq_of_cover 2 _ (fun t _ => flushed0_eq V c t) cover0

end Cert.KernelIdeal.RegionValue
end
-- ==== Proof.RegionBias1.lean ====
/-
  The first bias region: a one-row array added to every row of a 50000 x 128 array and the result clamped at zero,
  5000 rows at a time.

  The region runs over ten points.  Point t loads the block of rows 5000 t, ..., 5000 t + 4999 of the aggregated array
  x and the whole one-row array b, casts each to its own shape (nothing moves), repeats the row b down the 5000 rows,
  adds, takes the maximum with the zero literal repeated over the block, and stores the block: entry (p, q) of what
  point t writes back is the maximum of x(5000 t + p, q) + b(0, q) and the zero literal's value.  Row r of the array
  lies in the block of point r / 5000, and every point writes its block back, so the blocks fill the array and the array
  ends holding, at (r, q), the maximum of x(r, q) + b(0, q) and the zero literal's value.  The literal is carried as the
  word it is printed with; it is the same word on both sides and is never evaluated.
-/
import proofs.«131004_j25649544692374_1_alg».proof.Proof.Gen.KernelIdeal.Frame
import proofs.«131004_j25649544692374_1_alg».proof.Proof.LibTileOps
noncomputable section
namespace Cert.KernelIdeal.RegionValue
open Idealize.ShloMosaic Idealize.ShloMosaic.TcCoe Idealize.SL.Sem Cert.KernelIdeal Cert.KernelIdeal.Gen
open Idealize.ShloMosaic.ValueIdx
variable (V : (c : Dev nD) → (b : Ref sig .tc) → Buf (Elt Ideal) ((c : Thread nD τ).loc b))

/-- The zero offsets of a whole-block access, however they are spelt. -/
theorem hz1 : (![0, 0] : Fin 2 → Nat) = fun _ => 0 := funext fun a => by fin_cases a <;> rfl

/-- What the body computes from a loaded block and the loaded row, entry by entry: the block's entry plus the row's
    entry of the same column, then the maximum with the zero literal's value. -/
theorem pay1_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  refine (maximumf_apply _ _ (ix2 p q)).trans ?_
  rw [shapeCast_self, shapeCast_self]
  refine congrArg (max · (Ideal.ofBits .f32 0x00000000#32)) ?_
  refine (addf_apply _ _ (ix2 p q)).trans ?_
  exact congrArg (x0 (ix2 p q) + ·) (broadcastTo_1b_ab_apply x1 broadcasts_S1x128_S5000x128 p q)

/-- The block indices of the three windows at each point, decided over the ten points: the input block and the output
    block are both block (t, 0), the row's block is always (0, 0). -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the array with the row added to every row and clamped at zero: entry (p, q)
    of the input block and of the output block both sit at (5000 t + p, q) of their arrays, and the row's entry (0, q)
    at (0, q). -/
theorem flushed1_eq (c : Dev nD) (t : Fin cfg1.N) :
    (dat1 (F := Ideal) V c).flushed 2 t = ((cfg1.win 2).blk t).view.read (Elt Ideal)
      (Cert.LibTileOps.addRowClamp (A := 50000) (B := 128) (V c main_v43) (V c main_v44)) := by
  show (cfg1.win 2).cut (grid1.coords t) ((dat1 (F := Ideal) V c).after 2 t) = _
  rw [after1_2]
  unfold out1_2
  rw [View.canon_unit_zero hz1]
  simp only [View.ld_unit_zero (S := S5000x128) hz1, View.ld_unit_zero (S := S1x128) hz1]
  obtain ⟨e0, e1, e2, e3, e4, e5⟩ := idx_facts1 t
  have ht : t.val < 10 := lt_of_lt_of_eq t.isLt N_1
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h0 : ((cfg1.win 0).blk t).view.emb (ix2 p q) = ix2 (⟨t.val * 5000 + p.val, hr⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  refine (pay1_apply (iblk1 V c 0 t) (iblk1 V c 1 t) p q).trans ?_
  have key : ∀ (X : FVec Ideal S50000x128 .f32) (b : FVec Ideal S1x128 .f32),
      max (X (((cfg1.win 0).blk t).view.emb (ix2 p q)) + b (((cfg1.win 1).blk t).view.emb (ix2 (0 : Fin 1) q)))
          (Ideal.ofBits .f32 0x00000000#32)
        = Cert.LibTileOps.addRowClamp (A := 50000) (B := 128) X b (((cfg1.win 2).blk t).view.emb (ix2 p q)) := by
    intro X b
    rw [h0, h1, h2, Cert.LibTileOps.addRowClamp_apply]
  exact key (V c main_v43) (V c main_v44)

/-- An index of the array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every index of the array is in some point's block: row r is in the block of point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e0, e1, e2, e3, e4, e5⟩ := idx_facts1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array after the region: the one-row array added to every row of the aggregated array, clamped at zero. -/
theorem region1_array (c : Dev nD) :
    (dat1 (F := Ideal) V c).arrAt 2 cfg1.N = Cert.LibTileOps.addRowClamp (A := 50000) (B := 128) (V c main_v43) (V c main_v44) :=
  (dat1 (F := Ideal) V c).arrAt_eq_of_cover 2 _ (fun t _ => flushed1_eq V c t) cover1

end Cert.KernelIdeal.RegionValue
end
-- ==== Proof.RegionProduct2.lean ====
/-
  The second matrix-product region, as one array.

  The region walks ten grid points.  Point t loads rows 5000 t … 5000 t + 4999 of the left array (a [50000, 128] array,
  so the block is [5000, 128]) and the whole [128, 64] right array, casts the left block to its own shape (nothing
  changes), rounds both to a narrower format (the identity on the extended reals), multiplies them into the zero
  accumulator and stores the [5000, 64] result as block t of the output.  Entry (p, c) of that block is the sum over k
  of left(5000 t + p, k) · right(k, c): entry (5000 t + p, c) of the matrix product of the two whole arrays.  Row r of
  the output lies in the block of point r / 5000, so the ten blocks fill the output, which therefore ends as the
  matrix product.
-/
import proofs.«131004_j25649544692374_1_alg».proof.Proof.Gen.KernelIdeal.Frame
import proofs.«131004_j25649544692374_1_alg».proof.Proof.LibTileOps
noncomputable section
namespace Cert.KernelIdeal.RegionValue
open Idealize.ShloMosaic Idealize.ShloMosaic.TcCoe Idealize.SL.Sem Cert.KernelIdeal Cert.KernelIdeal.Gen
open Idealize.ShloMosaic.ValueIdx
variable (V : (c : Dev nD) → (b : Ref sig .tc) → Buf (Elt Ideal) ((c : Thread nD τ).loc b))

/-- The zero offsets of a whole-buffer access, as a constant function. -/
theorem hz2 : (![0, 0] : Fin 2 → Nat) = fun _ => 0 := funext fun a => by fin_cases a <;> rfl

/-- The body's payload at an entry: the cast of a shape to itself and the rounding are the identity, and the product
    into the zero accumulator is the plain sum over the contracted axis. -/
theorem pay2_apply (x0 : FVec Ideal S5000x128 .f32) (x1 : FVec Ideal S128x64 .f32) (p : Fin 5000) (q : Fin 64) :
    k2_pay1 (F := Ideal) x0 x1 (ix2 p q) = ∑ k : Fin 128, x0 (ix2 p k) * x1 (ix2 k q) := by
  unfold k2_pay1
  rw [shapeCast_self]
  exact Cert.LibPlainDot.Plain.matmul_zero_apply_formats (D := dot_S5000x128_S128x64_S5000x64_1_0_0_1_n_n)
    ⟨rfl, rfl, rfl, rfl, rfl, rfl⟩ none (truncf .bf16 x0 bitsLt_bf16_f32) (truncf .bf16 x1 bitsLt_bf16_f32) p q

/-- If row p of the left block is row P of the left array and the right block is the right array, the payload's
    entry (p, q) is entry (P, q) of the matrix product. -/
theorem point2 (A : FVec Ideal ⟨2, ![50000, 128]⟩ .f32) (W : FVec Ideal ⟨2, ![128, 64]⟩ .f32)
    (x0 : FVec Ideal S5000x128 .f32) (x1 : FVec Ideal S128x64 .f32) (P : Fin 50000) (p : Fin 5000) (q : Fin 64)
    (h0 : ∀ k : Fin 128, x0 (ix2 p k) = A (ix2 P k)) (h1 : ∀ k : Fin 128, x1 (ix2 k q) = W (ix2 k q)) :
    k2_pay1 (F := Ideal) x0 x1 (ix2 p q) = Cert.LibTileOps.matProd A W (ix2 P q) := by
  rw [pay2_apply, Cert.LibTileOps.matProd_apply]
  exact Finset.sum_congr rfl fun k _ => by rw [h0 k, h1 k]

/-- The block indices over the grid: the left window and the output move together along the rows, one block per
    point; the right window and every column index stay at zero. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point t writes back is block t of the matrix product of the two whole arrays as the region finds them. -/
theorem flushed2_eq (c : Dev nD) (t : Fin cfg2.N) :
    (dat2 (F := Ideal) V c).flushed 2 t = ((cfg2.win 2).blk t).view.read (Elt Ideal)
      (Cert.LibTileOps.matProd (A := 50000) (K := 128) (B := 64) (V c main_v45) (V c main_arg4)) := by
  show (cfg2.win 2).cut (grid2.coords t) ((dat2 (F := Ideal) V c).after 2 t) = _
  rw [after2_2]
  unfold out2_2
  rw [View.canon_unit_zero hz2]
  simp only [View.ld_unit_zero (S := S5000x128) hz2, View.ld_unit_zero (S := S128x64) hz2]
  obtain ⟨e0, e1, e2, e3, e4, e5⟩ := idx_facts2 t
  funext j
  revert j
  show ∀ j : S5000x64.Idx, k2_pay1 (F := Ideal) (iblk2 V c 0 t) (iblk2 V c 1 t) j
    = Cert.LibTileOps.matProd (A := 50000) (K := 128) (B := 64) (V c main_v45) (V c main_arg4) (((cfg2.win 2).blk t).view.emb j)
  intro j
  obtain ⟨p, q, rfl⟩ : ∃ (p : Fin 5000) (q : Fin 64), j = ix2 p q := ⟨j 0, j 1, eq_ix2 j⟩
  have hp : p.val < 5000 := p.isLt
  have hP : win2_2.index t (0 : Fin 2) * 5000 + p.val < 50000 := by omega
  have eo : ((cfg2.win 2).blk t).view.emb (ix2 p q) = ix2 (⟨win2_2.index t (0 : Fin 2) * 5000 + p.val, hP⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  rw [eo]
  refine point2 _ _ _ _ _ p q (fun k => ?_) (fun k => ?_)
  · show V c main_v45 (((cfg2.win 0).blk t).view.emb (ix2 p k)) = V c main_v45 (ix2 _ k)
    refine congrArg _ ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega

/-- An index of the output array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Row r of the output is in the block of point r / 5000: the ten blocks fill the array. -/
theorem cover2 (i : S50000x64.Idx) :
    ∃ t : Fin cfg2.N, (cfg2.win 2).flush t = true ∧ i ∈ ((cfg2.win 2).blk t).view.set := by
  have hi0 : (i 0).val < 50000 := idx2_lt0 i
  have hi1 : (i 1).val < 64 := idx2_lt1 i
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region is the matrix product of the two arrays the region reads. -/
theorem region2_array (c : Dev nD) :
    (dat2 (F := Ideal) V c).arrAt 2 cfg2.N = Cert.LibTileOps.matProd (A := 50000) (K := 128) (B := 64) (V c main_v45) (V c main_arg4) :=
  (dat2 (F := Ideal) V c).arrAt_eq_of_cover 2 _ (fun t _ => flushed2_eq V c t) cover2

end Cert.KernelIdeal.RegionValue
end
-- ==== Proof.RegionBias3.lean ====
/-
  The second bias region: a one-row array added to every row of a 50000 x 64 array, 5000 rows at a time.

  The region runs over ten points.  Point t loads the block of rows 5000 t, ..., 5000 t + 4999 of the aggregated array
  x and the whole one-row array b, casts each to its own shape (nothing moves), repeats the row b down the 5000 rows,
  adds, and stores the block: entry (p, q) of what point t writes back is x(5000 t + p, q) + b(0, q).  Row r of the
  array lies in the block of point r / 5000, and every point writes its block back, so the blocks fill the array and the
  array ends holding, at (r, q), the sum x(r, q) + b(0, q): the row added to every row of x.
-/
import proofs.«131004_j25649544692374_1_alg».proof.Proof.Gen.KernelIdeal.Frame
import proofs.«131004_j25649544692374_1_alg».proof.Proof.LibTileOps
noncomputable section
namespace Cert.KernelIdeal.RegionValue
open Idealize.ShloMosaic Idealize.ShloMosaic.TcCoe Idealize.SL.Sem Cert.KernelIdeal Cert.KernelIdeal.Gen
open Idealize.ShloMosaic.ValueIdx
variable (V : (c : Dev nD) → (b : Ref sig .tc) → Buf (Elt Ideal) ((c : Thread nD τ).loc b))

/-- The zero offsets of a whole-block access, however they are spelt. -/
theorem hz3 : (![0, 0] : Fin 2 → Nat) = fun _ => 0 := funext fun a => by fin_cases a <;> rfl

/-- What the body computes from a loaded block and the loaded row, entry by entry: the block's entry plus the row's
    entry of the same column. -/
theorem pay3_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  refine (addf_apply _ _ (ix2 p q)).trans ?_
  rw [shapeCast_self, shapeCast_self]
  exact congrArg (x0 (ix2 p q) + ·) (broadcastTo_1b_ab_apply x1 broadcasts_S1x64_S5000x64 p q)

/-- The block indices of the three windows at each point, decided over the ten points: the input block and the output
    block are both block (t, 0), the row's block is always (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the array with the row added to every row: entry (p, q) of the input block
    and of the output block both sit at (5000 t + p, q) of their arrays, and the row's entry (0, q) at (0, q). -/
theorem flushed3_eq (c : Dev nD) (t : Fin cfg3.N) :
    (dat3 (F := Ideal) V c).flushed 2 t = ((cfg3.win 2).blk t).view.read (Elt Ideal)
      (Cert.LibTileOps.addRow (A := 50000) (B := 64) (V c main_v59) (V c main_v60)) := by
  show (cfg3.win 2).cut (grid3.coords t) ((dat3 (F := Ideal) V c).after 2 t) = _
  rw [after3_2]
  unfold out3_2
  rw [View.canon_unit_zero hz3]
  simp only [View.ld_unit_zero (S := S5000x64) hz3, View.ld_unit_zero (S := S1x64) hz3]
  obtain ⟨e0, e1, e2, e3, e4, e5⟩ := idx_facts3 t
  have ht : t.val < 10 := lt_of_lt_of_eq t.isLt N_3
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hr : t.val * 5000 + p.val < 50000 := by omega
  have h0 : ((cfg3.win 0).blk t).view.emb (ix2 p q) = ix2 (⟨t.val * 5000 + p.val, hr⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have h2 : ((cfg3.win 2).blk t).view.emb (ix2 p q) = ix2 (⟨t.val * 5000 + p.val, hr⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  refine (pay3_apply (iblk3 V c 0 t) (iblk3 V c 1 t) p q).trans ?_
  have key : ∀ (X : FVec Ideal S50000x64 .f32) (b : FVec Ideal S1x64 .f32),
      X (((cfg3.win 0).blk t).view.emb (ix2 p q)) + b (((cfg3.win 1).blk t).view.emb (ix2 (0 : Fin 1) q))
        = Cert.LibTileOps.addRow (A := 50000) (B := 64) X b (((cfg3.win 2).blk t).view.emb (ix2 p q)) := by
    intro X b
    rw [h0, h1, h2, Cert.LibTileOps.addRow_apply]
  exact key (V c main_v59) (V c main_v60)

/-- An index of the array is in point t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Every index of the array is in some point's block: row r is in the block of point r / 5000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  let t : Fin cfg3.N := ⟨(i 0).val / 5000, by show (i 0).val / 5000 < grid3.N; omega⟩
  obtain ⟨e0, e1, e2, e3, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The array after the region: the one-row array added to every row of the aggregated array. -/
theorem region3_array (c : Dev nD) :
    (dat3 (F := Ideal) V c).arrAt 2 cfg3.N = Cert.LibTileOps.addRow (A := 50000) (B := 64) (V c main_v59) (V c main_v60) :=
  (dat3 (F := Ideal) V c).arrAt_eq_of_cover 2 _ (fun t _ => flushed3_eq V c t) cover3

end Cert.KernelIdeal.RegionValue
end
-- ==== Proof.KernelValue.lean ====
/-
  The value of the graph convolution's program: the contents of its result buffer at the return are the network of
  Spec.lean applied to the launch contents of the six arguments.

  The buffers are followed from boundary to boundary. The stretch before the first region computes, from the edge list
  alone, the sources, the targets and the edges' weights; every later boundary still holds them, and still holds the
  bias and weight arguments, because no later stretch writes those buffers and a region changes only its own output
  array (`Carried`). Region 0's output array is the matrix product of the features with the first weights; the next
  stretch aggregates its rows and lays the first bias as a row; region 1 adds the row and clamps at zero; region 2
  multiplies by the second weights; the next stretch aggregates again and lays the second bias; region 3 adds it.
-/
import proofs.«131004_j25649544692374_1_alg».proof.Proof.Gen.KernelIdeal.Frame
import proofs.«131004_j25649544692374_1_alg».proof.Proof.Spec
import proofs.«131004_j25649544692374_1_alg».proof.Proof.LibKeeps
import proofs.«131004_j25649544692374_1_alg».proof.Proof.HostStretch
import proofs.«131004_j25649544692374_1_alg».proof.Proof.RegionProduct0
import proofs.«131004_j25649544692374_1_alg».proof.Proof.RegionBias1
import proofs.«131004_j25649544692374_1_alg».proof.Proof.RegionProduct2
import proofs.«131004_j25649544692374_1_alg».proof.Proof.RegionBias3

set_option maxRecDepth 16384

noncomputable section

namespace Cert.KernelIdeal.KValue

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg) (c : Dev nD)

/-- What every boundary from the first region's entry on holds: the sources, the targets and the weights of the
    edges, and the three arguments the later regions and stretches read. -/
structure Carried (W : Valuation τ sig (Elt Ideal)) : Prop where
  src : W (Proc.devRef .tc main_v5) = Spec.srcFull (m ((c : Thread nD τ).loc main_arg1))
  dst : W (Proc.devRef .tc main_v6) = Spec.dstFull (m ((c : Thread nD τ).loc main_arg1))
  wgt : W (Proc.devRef .tc main_v29) = Spec.edgeWeight (m ((c : Thread nD τ).loc main_arg1))
  b1 : W (Proc.devRef .tc main_arg3) = m ((c : Thread nD τ).loc main_arg3)
  w2 : W (Proc.devRef .tc main_arg4) = m ((c : Thread nD τ).loc main_arg4)
  b2 : W (Proc.devRef .tc main_arg5) = m ((c : Thread nD τ).loc main_arg5)

variable {m c} in
/-- Contents that agree with carried ones on the six buffers carry them too. -/
theorem Carried.of_eq {W W' : Valuation τ sig (Elt Ideal)} (h : Carried m c W)
    (e1 : W' (Proc.devRef .tc main_v5) = W (Proc.devRef .tc main_v5))
    (e2 : W' (Proc.devRef .tc main_v6) = W (Proc.devRef .tc main_v6))
    (e3 : W' (Proc.devRef .tc main_v29) = W (Proc.devRef .tc main_v29))
    (e4 : W' (Proc.devRef .tc main_arg3) = W (Proc.devRef .tc main_arg3))
    (e5 : W' (Proc.devRef .tc main_arg4) = W (Proc.devRef .tc main_arg4))
    (e6 : W' (Proc.devRef .tc main_arg5) = W (Proc.devRef .tc main_arg5)) : Carried m c W' :=
  ⟨e1.trans h.src, e2.trans h.dst, e3.trans h.wgt, e4.trans h.b1, e5.trans h.w2, e6.trans h.b2⟩

/-! ## Up to the first region's entry -/

theorem w1_src : W1 m ρ c (Proc.devRef .tc main_v5) = Spec.srcFull (m ((c : Thread nD τ).loc main_arg1)) :=
  HostValue.stretch0_src (W0 m ρ c)
theorem w1_dst : W1 m ρ c (Proc.devRef .tc main_v6) = Spec.dstFull (m ((c : Thread nD τ).loc main_arg1)) :=
  HostValue.stretch0_dst (W0 m ρ c)

/-- The nodes' factors after the `where`. -/
theorem w2_factor : W2 m ρ c (Proc.devRef .tc main_v14) = Spec.degInvSqrt (m ((c : Thread nD τ).loc main_arg1)) := by
  have h12 : W1 m ρ c (Proc.devRef .tc main_v12) = _ := HostValue.stretch0_pos (W0 m ρ c)
  have h13 : W1 m ρ c (Proc.devRef .tc main_v13) = _ := HostValue.stretch0_rsqrt (W0 m ρ c)
  have hz : W1 m ρ c (Proc.devRef .tc main_cst_2) = _ := HostValue.stretch0_zero (W0 m ρ c)
  refine (HostValue.stretch01_factor (W1 m ρ c)).trans ?_
  rw [h12, h13, hz]
  rfl

theorem w2_src : W2 m ρ c (Proc.devRef .tc main_v5) = Spec.srcFull (m ((c : Thread nD τ).loc main_arg1)) :=
  (by keeps_host hostOps0_1 : W2 m ρ c (Proc.devRef .tc main_v5) = W1 m ρ c (Proc.devRef .tc main_v5)).trans (w1_src m ρ c)
theorem w2_dst : W2 m ρ c (Proc.devRef .tc main_v6) = Spec.dstFull (m ((c : Thread nD τ).loc main_arg1)) :=
  (by keeps_host hostOps0_1 : W2 m ρ c (Proc.devRef .tc main_v6) = W1 m ρ c (Proc.devRef .tc main_v6)).trans (w1_dst m ρ c)

/-- The edges' weights at the first region's entry. -/
theorem w3_weight : W3 m ρ c (Proc.devRef .tc main_v29) = Spec.edgeWeight (m ((c : Thread nD τ).loc main_arg1)) := by
  refine (HostValue.stretch02_weight (W2 m ρ c)).trans ?_
  rw [w2_factor m ρ c, w2_src m ρ c, w2_dst m ρ c]
  rfl

/-- A buffer none of the three first stretches writes is at its launch contents at the first region's entry. -/
macro "launch_kept" : tactic =>
  `(tactic| exact (by keeps_host hostOps0_2 : W3 m ρ c _ = W2 m ρ c _).trans
      ((by keeps_host hostOps0_1 : W2 m ρ c _ = W1 m ρ c _).trans (by keeps_host hostOps0 : W1 m ρ c _ = W0 m ρ c _)))

theorem w3_x : W3 m ρ c (Proc.devRef .tc main_arg0) = m ((c : Thread nD τ).loc main_arg0) := by launch_kept
theorem w3_w1 : W3 m ρ c (Proc.devRef .tc main_arg2) = m ((c : Thread nD τ).loc main_arg2) := by launch_kept
theorem w3_b1 : W3 m ρ c (Proc.devRef .tc main_arg3) = m ((c : Thread nD τ).loc main_arg3) := by launch_kept
theorem w3_w2 : W3 m ρ c (Proc.devRef .tc main_arg4) = m ((c : Thread nD τ).loc main_arg4) := by launch_kept
theorem w3_b2 : W3 m ρ c (Proc.devRef .tc main_arg5) = m ((c : Thread nD τ).loc main_arg5) := by launch_kept

theorem carried3 : Carried m c (W3 m ρ c) where
  src := (by keeps_host hostOps0_2 : W3 m ρ c (Proc.devRef .tc main_v5) = W2 m ρ c (Proc.devRef .tc main_v5)).trans (w2_src m ρ c)
  dst := (by keeps_host hostOps0_2 : W3 m ρ c (Proc.devRef .tc main_v6) = W2 m ρ c (Proc.devRef .tc main_v6)).trans (w2_dst m ρ c)
  wgt := w3_weight m ρ c
  b1 := w3_b1 m ρ c
  w2 := w3_w2 m ρ c
  b2 := w3_b2 m ρ c

/-! ## Layer one -/

/-- Region 0 leaves the product of the features with the first weights. -/
theorem w4_product : W4 m ρ c (Proc.devRef .tc main_v30)
    = Cert.LibTileOps.matProd (A := 50000) (K := 3) (B := 128) (m ((c : Thread nD τ).loc main_arg0)) (m ((c : Thread nD τ).loc main_arg2)) :=
  (W4_arr m ρ c 2).trans ((RegionValue.region0_array (V3 m ρ) c).trans
    (congrArg₂ (Cert.LibTileOps.matProd (A := 50000) (K := 3) (B := 128)) (w3_x m ρ c) (w3_w1 m ρ c)))

theorem carried4 : Carried m c (W4 m ρ c) :=
  (carried3 m ρ c).of_eq (W4_of_ne m ρ c main_v5 (by decide)) (W4_of_ne m ρ c main_v6 (by decide)) (W4_of_ne m ρ c main_v29 (by decide))
    (W4_of_ne m ρ c main_arg3 (by decide)) (W4_of_ne m ρ c main_arg4 (by decide)) (W4_of_ne m ρ c main_arg5 (by decide))

/-- The aggregated rows of the product at region 1's entry. -/
theorem w5_aggregate : W5 m ρ c (Proc.devRef .tc main_v43)
    = Spec.aggregate128 (Spec.srcFull (m ((c : Thread nD τ).loc main_arg1))) (Spec.dstFull (m ((c : Thread nD τ).loc main_arg1)))
        (Spec.edgeWeight (m ((c : Thread nD τ).loc main_arg1)))
        (Cert.LibTileOps.matProd (A := 50000) (K := 3) (B := 128) (m ((c : Thread nD τ).loc main_arg0)) (m ((c : Thread nD τ).loc main_arg2))) := by
  refine (HostValue.stretch1_aggregate (W4 m ρ c)).trans ?_
  rw [(carried4 m ρ c).src, (carried4 m ρ c).dst, (carried4 m ρ c).wgt, w4_product m ρ c]

/-- The first bias as a row at region 1's entry. -/
theorem w5_bias : W5 m ρ c (Proc.devRef .tc main_v44)
    = shapeCast S1x128 (m ((c : Thread nD τ).loc main_arg3)) Facts₀.shapeCasts_S128_S1x128 := by
  refine (HostValue.stretch1_bias (W4 m ρ c)).trans ?_
  rw [(carried4 m ρ c).b1]

theorem carried5 : Carried m c (W5 m ρ c) :=
  (carried4 m ρ c).of_eq (by keeps_host hostOps1) (by keeps_host hostOps1) (by keeps_host hostOps1)
    (by keeps_host hostOps1) (by keeps_host hostOps1) (by keeps_host hostOps1)

/-- Region 1 leaves the aggregated rows plus the bias row, clamped below at zero. -/
theorem w6_hidden : W6 m ρ c (Proc.devRef .tc main_v45)
    = Cert.LibTileOps.addRowClamp (A := 50000) (B := 128)
        (Spec.aggregate128 (Spec.srcFull (m ((c : Thread nD τ).loc main_arg1))) (Spec.dstFull (m ((c : Thread nD τ).loc main_arg1)))
          (Spec.edgeWeight (m ((c : Thread nD τ).loc main_arg1)))
          (Cert.LibTileOps.matProd (A := 50000) (K := 3) (B := 128) (m ((c : Thread nD τ).loc main_arg0)) (m ((c : Thread nD τ).loc main_arg2))))
        (shapeCast S1x128 (m ((c : Thread nD τ).loc main_arg3)) Facts₀.shapeCasts_S128_S1x128) :=
  (W6_arr m ρ c 2).trans ((RegionValue.region1_array (V5 m ρ) c).trans
    (congrArg₂ (Cert.LibTileOps.addRowClamp (A := 50000) (B := 128)) (w5_aggregate m ρ c) (w5_bias m ρ c)))

theorem carried6 : Carried m c (W6 m ρ c) :=
  (carried5 m ρ c).of_eq (W6_of_ne m ρ c main_v5 (by decide)) (W6_of_ne m ρ c main_v6 (by decide)) (W6_of_ne m ρ c main_v29 (by decide))
    (W6_of_ne m ρ c main_arg3 (by decide)) (W6_of_ne m ρ c main_arg4 (by decide)) (W6_of_ne m ρ c main_arg5 (by decide))

/-! ## Layer two -/

/-- The hidden features, by name. -/
abbrev hidden : FVec Ideal S50000x128 .f32 :=
  Cert.LibTileOps.addRowClamp (A := 50000) (B := 128)
    (Spec.aggregate128 (Spec.srcFull (m ((c : Thread nD τ).loc main_arg1))) (Spec.dstFull (m ((c : Thread nD τ).loc main_arg1)))
      (Spec.edgeWeight (m ((c : Thread nD τ).loc main_arg1)))
      (Cert.LibTileOps.matProd (A := 50000) (K := 3) (B := 128) (m ((c : Thread nD τ).loc main_arg0)) (m ((c : Thread nD τ).loc main_arg2))))
    (shapeCast S1x128 (m ((c : Thread nD τ).loc main_arg3)) Facts₀.shapeCasts_S128_S1x128)

/-- Region 2 leaves the product of the hidden features with the second weights. -/
theorem w7_product : W7 m ρ c (Proc.devRef .tc main_v46)
    = Cert.LibTileOps.matProd (A := 50000) (K := 128) (B := 64) (hidden m c) (m ((c : Thread nD τ).loc main_arg4)) :=
  (W7_arr m ρ c 2).trans ((RegionValue.region2_array (V6 m ρ) c).trans
    (congrArg₂ (Cert.LibTileOps.matProd (A := 50000) (K := 128) (B := 64)) (w6_hidden m ρ c) (carried6 m ρ c).w2))

/-- The second weights are region 2's own input array: an input window's array is left as entered. -/
theorem carried7 : Carried m c (W7 m ρ c) :=
  (carried6 m ρ c).of_eq (W7_of_ne m ρ c main_v5 (by decide)) (W7_of_ne m ρ c main_v6 (by decide)) (W7_of_ne m ρ c main_v29 (by decide))
    (W7_of_ne m ρ c main_arg3 (by decide))
    ((W7_arr m ρ c 1).trans (((dat2 (V6 m ρ) c).arrAt_in 1 rfl _).trans (A_eq2 (V6 m ρ) c 1)))
    (W7_of_ne m ρ c main_arg5 (by decide))

/-- The aggregated rows of the second product at region 3's entry. -/
theorem w8_aggregate : W8 m ρ c (Proc.devRef .tc main_v59)
    = Spec.aggregate64 (Spec.srcFull (m ((c : Thread nD τ).loc main_arg1))) (Spec.dstFull (m ((c : Thread nD τ).loc main_arg1)))
        (Spec.edgeWeight (m ((c : Thread nD τ).loc main_arg1)))
        (Cert.LibTileOps.matProd (A := 50000) (K := 128) (B := 64) (hidden m c) (m ((c : Thread nD τ).loc main_arg4))) := by
  refine (HostValue.stretch3_aggregate (W7 m ρ c)).trans ?_
  rw [(carried7 m ρ c).src, (carried7 m ρ c).dst, (carried7 m ρ c).wgt, w7_product m ρ c]

/-- The second bias as a row at region 3's entry. -/
theorem w8_bias : W8 m ρ c (Proc.devRef .tc main_v60)
    = shapeCast S1x64 (m ((c : Thread nD τ).loc main_arg5)) Facts₀.shapeCasts_S64_S1x64 := by
  refine (HostValue.stretch3_bias (W7 m ρ c)).trans ?_
  rw [(carried7 m ρ c).b2]

/-- THE VALUE: at the return the result buffer holds the network of the six arguments' launch contents. -/
theorem result_value : W9 m ρ c (Proc.devRef .tc main_v61)
    = Spec.network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W9_arr m ρ c 2).trans ((RegionValue.region3_array (V8 m ρ) c).trans
    (congrArg₂ (Cert.LibTileOps.addRow (A := 50000) (B := 64)) (w8_aggregate m ρ c) (w8_bias m ρ c)))

end Cert.KernelIdeal.KValue

end
-- ==== Proof.ReferenceValue.lean ====
/-
  The reference program's result is the specification's function of the six arguments.

  The reference computes, one whole-array operation at a time: the edge list with one self loop per node appended
  (sources and targets, twice over — once per layer, the same operations both times); each node's degree as the sum of
  ones over the edges that target it; the nodes' factors degree^(-1/2), zero where the degree is not positive; each
  edge's weight as (source's factor · 1) · target's factor; then per layer the matrix product with the layer's weights,
  the gather of the sources' rows, their product with the edge weights, the sum into the targets, and the bias row added
  to every row, the first layer clamped below at zero.  The specification is the same composition with the factor 1
  left out and with the matrix product, the bias addition and the clamp written entry by entry.  So every stage is the
  specification's stage by unfolding the two definitions, except three: x · 1 = x on the extended reals, a
  dot_general of plain dimension numbers is the entry-by-entry matrix product, and a sum (or a sum and a maximum) with
  a vector broadcast to a row and then down the columns is the entry-by-entry bias addition (and clamp).
-/
import proofs.«131004_j25649544692374_1_alg».proof.Proof.ReferenceReadP
import proofs.«131004_j25649544692374_1_alg».proof.Proof.Spec
import Idealize.ShloMosaic.Lib.ValueIdx
import Idealize.ShloMosaic.Lib.IdealHost
import Idealize.ShloMosaic.PureOps.Ideal.Laws
noncomputable section
namespace Cert.ReferenceIdeal.RefValue
open Idealize.ShloMosaic Cert.ReferenceIdeal Cert.ReferenceIdeal.ReadP
open Idealize.ShloMosaic.ValueIdx
open Cert.KernelIdeal.Spec (srcFull dstFull col wrapCol degreeOf degree invSqrtOf degInvSqrt edgeWeightOf edgeWeight
  aggregate128 aggregate64 network)
open Cert.LibTileOps (matProd addRow addRowClamp)

variable (x0 : FVec Ideal Cert.KernelIdeal.S50000x3 .f32) (x1 : IVec Cert.KernelIdeal.S2x800000 32)
  (x2 : FVec Ideal Cert.KernelIdeal.S3x128 .f32) (x3 : FVec Ideal Cert.KernelIdeal.S128 .f32)
  (x4 : FVec Ideal Cert.KernelIdeal.S128x64 .f32) (x5 : FVec Ideal Cert.KernelIdeal.S64 .f32)

/-! ## The edge list with its self loops, computed once per layer -/

theorem src_first : val_main_v5 (F := Ideal) x1 = srcFull x1 := rfl
theorem dst_first : val_main_v6 (F := Ideal) x1 = dstFull x1 := rfl
theorem src_second : val_main_v54 (F := Ideal) x1 = srcFull x1 := rfl
theorem dst_second : val_main_v55 (F := Ideal) x1 = dstFull x1 := rfl

/-! ## Degrees and the nodes' factors -/

theorem degree_first : val_main_v10 (F := Ideal) x1 = degree x1 := rfl
theorem degree_second : val_main_v59 (F := Ideal) x1 = degree x1 := rfl
theorem factor_first : val_main_v14 (F := Ideal) x1 = degInvSqrt x1 := rfl
theorem factor_second : val_main_v63 (F := Ideal) x1 = degInvSqrt x1 := rfl

/-! ## Edge weights: the reference multiplies the source's factor by one first -/

/-- The array of ones is one at every index. -/
theorem ones_first_apply (i : S850000.Idx) : val_main_v7 (F := Ideal) i = 1 := by
  rw [val_main_v7_apply, val_main_cst_apply]; exact Ideal.ofBits_one_f32
theorem ones_second_apply (i : S850000.Idx) : val_main_v56 (F := Ideal) i = 1 := by
  rw [val_main_v56_apply, val_main_cst_9_apply]; exact Ideal.ofBits_one_f32

/-- A product with the array of ones is the other factor: x · 1 = x on the extended reals. -/
theorem mul_ones_first (a : FVec Ideal S850000 .f32) : mulf a (val_main_v7 (F := Ideal)) = a := by
  funext i; rw [mulf_apply, ones_first_apply, mul_one]
theorem mul_ones_second (a : FVec Ideal S850000 .f32) : mulf a (val_main_v56 (F := Ideal)) = a := by
  funext i; rw [mulf_apply, ones_second_apply, mul_one]

theorem weight_first : val_main_v30 (F := Ideal) x1 = edgeWeight x1 := by
  unfold val_main_v30 val_main_v22
  rw [mul_ones_first]
  rfl
theorem weight_second : val_main_v79 (F := Ideal) x1 = edgeWeight x1 := by
  unfold val_main_v79 val_main_v71
  rw [mul_ones_second]
  rfl

/-! ## The first layer -/

theorem product_first : val_main_v31 (F := Ideal) x0 x2 = matProd (A := 50000) (K := 3) (B := 128) x0 x2 := by
  unfold val_main_v31
  exact Cert.LibTileOps.dotGeneral_eq_matProd (D := dot_S50000x3_S3x128_S50000x128_1_0_0_1_n_n)
    ⟨rfl, rfl, rfl, rfl, rfl, rfl⟩ none x0 x2

theorem aggregate_first : val_main_v44 (F := Ideal) x0 x1 x2
    = aggregate128 (srcFull x1) (dstFull x1) (edgeWeight x1) (matProd (A := 50000) (K := 3) (B := 128) x0 x2) := by
  have h : val_main_v44 (F := Ideal) x0 x1 x2 = aggregate128 (val_main_v5 (F := Ideal) x1) (val_main_v6 (F := Ideal) x1)
      (val_main_v30 (F := Ideal) x1) (val_main_v31 (F := Ideal) x0 x2) := rfl
  rw [h, src_first, dst_first, weight_first, product_first]

theorem layer_first : val_main_v48 (F := Ideal) x0 x1 x2 x3
    = addRowClamp (A := 50000) (B := 128) (val_main_v44 (F := Ideal) x0 x1 x2)
        (shapeCast Cert.KernelIdeal.S1x128 x3 Cert.KernelIdeal.Facts₀.shapeCasts_S128_S1x128) := by
  unfold val_main_v48 val_main_v47 val_main_v46 val_main_v45 val_main_call1_v0 val_main_call1_cst
  exact Cert.LibTileOps.maximumf_addf_bcast_row_eq_addRowClamp _ _ _ _ _ x3

/-! ## The second layer -/

theorem product_second : val_main_v80 (F := Ideal) x0 x1 x2 x3 x4
    = matProd (A := 50000) (K := 128) (B := 64) (val_main_v48 (F := Ideal) x0 x1 x2 x3) x4 := by
  unfold val_main_v80
  exact Cert.LibTileOps.dotGeneral_eq_matProd (D := dot_S50000x128_S128x64_S50000x64_1_0_0_1_n_n)
    ⟨rfl, rfl, rfl, rfl, rfl, rfl⟩ none _ x4

theorem aggregate_second : val_main_v93 (F := Ideal) x0 x1 x2 x3 x4
    = aggregate64 (srcFull x1) (dstFull x1) (edgeWeight x1) (val_main_v80 (F := Ideal) x0 x1 x2 x3 x4) := by
  have h : val_main_v93 (F := Ideal) x0 x1 x2 x3 x4 = aggregate64 (val_main_v54 (F := Ideal) x1) (val_main_v55 (F := Ideal) x1)
      (val_main_v79 (F := Ideal) x1) (val_main_v80 (F := Ideal) x0 x1 x2 x3 x4) := rfl
  rw [h, src_second, dst_second, weight_second]

theorem layer_second : val_main_v96 (F := Ideal) x0 x1 x2 x3 x4 x5
    = addRow (A := 50000) (B := 64) (val_main_v93 (F := Ideal) x0 x1 x2 x3 x4)
        (shapeCast Cert.KernelIdeal.S1x64 x5 Cert.KernelIdeal.Facts₀.shapeCasts_S64_S1x64) := by
  unfold val_main_v96 val_main_v95 val_main_v94
  exact Cert.LibTileOps.addf_bcast_row_eq_addRow _ _ _ _ x5

/-! ## The whole network -/

theorem reference_network (x0 : FVec Ideal Cert.KernelIdeal.S50000x3 .f32) (x1 : IVec Cert.KernelIdeal.S2x800000 32)
    (x2 : FVec Ideal Cert.KernelIdeal.S3x128 .f32) (x3 : FVec Ideal Cert.KernelIdeal.S128 .f32)
    (x4 : FVec Ideal Cert.KernelIdeal.S128x64 .f32) (x5 : FVec Ideal Cert.KernelIdeal.S64 .f32) :
    val_main_v96 (F := Ideal) x0 x1 x2 x3 x4 x5 = Cert.KernelIdeal.Spec.network x0 x1 x2 x3 x4 x5 := by
  rw [layer_second, aggregate_second, product_second, layer_first, aggregate_first]
  rfl

end Cert.ReferenceIdeal.RefValue
end
-- ==== Proof.lean ====
/-
  The certificate of a two-layer graph convolution.

  The program under proof computes each layer's dense stages — the product with the weights, the bias row and the
  clamp at zero — block by block in four tiled regions of ten points each, and the sparse stages between them (the
  gather of the sources' rows, the scaling by the edges' weights, the sum into the targets) as whole-array host
  operations; the edges' weights are computed once. The reference computes each layer with whole-array operations only
  and recomputes the weights per layer, multiplying by an array of ones on the way.

  On the extended reals the two results are one function of the arguments (Proof/Spec.lean): a block of a matrix
  product is the block of the whole product, a row added to a block is the row added to the whole array, a rounding
  to a shorter format is the identity, and x · 1 = x. No entry needs to be finite. The frames of the two tiled programs
  are the generated ones; the reference's frame is its run with the result dropped; the idealization rewrote nothing.
-/
import proofs.«131004_j25649544692374_1_alg».proof.Defs
import proofs.«131004_j25649544692374_1_alg».proof.Proof.Gen.Kernel
import proofs.«131004_j25649544692374_1_alg».proof.Proof.Gen.Kernel.Skeleton
import proofs.«131004_j25649544692374_1_alg».proof.Proof.Gen.Kernel.Launch
import proofs.«131004_j25649544692374_1_alg».proof.Proof.Gen.Kernel.Points
import proofs.«131004_j25649544692374_1_alg».proof.Proof.Gen.Kernel.Frame
import proofs.«131004_j25649544692374_1_alg».proof.Proof.Gen.KernelIdeal
import proofs.«131004_j25649544692374_1_alg».proof.Proof.Gen.KernelIdeal.Skeleton
import proofs.«131004_j25649544692374_1_alg».proof.Proof.Gen.KernelIdeal.Launch
import proofs.«131004_j25649544692374_1_alg».proof.Proof.Gen.KernelIdeal.Points
import proofs.«131004_j25649544692374_1_alg».proof.Proof.Gen.KernelIdeal.Frame
import proofs.«131004_j25649544692374_1_alg».proof.Proof.Gen.ReferenceIdeal
import proofs.«131004_j25649544692374_1_alg».proof.Proof.Gen.Pre_finite_inputs
import Idealize.ShloMosaic.Adequacy
import Idealize.ShloMosaic.Init

import proofs.«131004_j25649544692374_1_alg».proof.Proof.KernelRun
import proofs.«131004_j25649544692374_1_alg».proof.Proof.KernelValue
import proofs.«131004_j25649544692374_1_alg».proof.Proof.ReferenceReadP
import proofs.«131004_j25649544692374_1_alg».proof.Proof.ReferenceValue

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the idealized program. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the network of those arguments in their
    result arrays: the tiled program by following its buffers through the four regions, the reference by composing its
    stages. -/
theorem algebraic : Cert.algebraic_KernelIdeal_ReferenceIdeal := by
  intro m ρ m' ρ' _ hagree
  refine ⟨fun c => Cert.KernelIdeal.Spec.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_value m ρ c), (h c).2⟩)
      (Cert.KernelIdeal.KRun.run (F := Ideal) m ρ)
  · refine (θ_run Cert.ReferenceIdeal.defs _ _).mono (fun _ h c => ⟨?_, (h c).2⟩)
      (Cert.ReferenceIdeal.ValueP.run (F := Ideal) m' ρ')
    obtain ⟨a0, a1, a2, a3, a4, a5⟩ := hagree c
    refine (h c).1.trans ((Cert.ReferenceIdeal.ReadP.val_main_v96_eq m' c).trans ?_)
    rw [a0, a1, a2, a3, a4, a5]
    exact Cert.ReferenceIdeal.RefValue.reference_network _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
